-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000 : Shape := ⟨2, ![64, 2000]⟩
abbrev S256x2000 : Shape := ⟨2, ![256, 2000]⟩
abbrev S256 : Shape := ⟨1, ![256]⟩
abbrev S2000x256 : Shape := ⟨2, ![2000, 256]⟩
abbrev S2000x768 : Shape := ⟨2, ![2000, 768]⟩
abbrev S_ : Shape := ⟨0, ![]⟩

class Facts : Prop where
  bcast_S_S64x2000 : S_.BroadcastsInDim S64x2000 (![] : Fin 0 → Fin S64x2000.rank)
  reducesTo_S64x2000_S_d0_1 : S64x2000.ReducesTo [0, 1] S_
  h_S_ : 0 < S_.numel
  bcast_S_S256x2000 : S_.BroadcastsInDim S256x2000 (![] : Fin 0 → Fin S256x2000.rank)
  reducesTo_S256x2000_S_d0_1 : S256x2000.ReducesTo [0, 1] S_
  bcast_S_S256 : S_.BroadcastsInDim S256 (![] : Fin 0 → Fin S256.rank)
  reducesTo_S256_S_d0 : S256.ReducesTo [0] S_
  bcast_S_S2000x256 : S_.BroadcastsInDim S2000x256 (![] : Fin 0 → Fin S2000x256.rank)
  reducesTo_S2000x256_S_d0_1 : S2000x256.ReducesTo [0, 1] S_
  bcast_S_S2000x768 : S_.BroadcastsInDim S2000x768 (![] : Fin 0 → Fin S2000x768.rank)
  reducesTo_S2000x768_S_d0_1 : S2000x768.ReducesTo [0, 1] S_

variable [Facts]

def fn_part1 {F : FTy → Type} [FloatOps F] (main_arg4 : FVec F S2000x768 .f32) (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  let main_v19 : FVec F S2000x768 .f32 := Host.absf main_arg4
  let main_cst_6 : FVec F S_ .f32 := constant S_ .f32 0x7F800000#32
  let main_v20 : FVec F S2000x768 .f32 := broadcastInDim S2000x768 ![] bcast_S_S2000x768 main_cst_6
  let main_v21 : IVec S2000x768 1 := cmpf .olt main_v19 main_v20
  let main_c_7 : IVec S_ 1 := constantI S_ 1 1#1
  let main_v22 : IVec S_ 1 := (fun x v => Host.reduce IntOp.andi x v reducesTo_S2000x768_S_d0_1 h_S_) main_v21 main_c_7
  let main_v23 : IVec S_ 1 := andi main_v18 main_v22
  main_v23

def fn {F : FTy → Type} [FloatOps F] (main_arg0 : FVec F S64x2000 .f32) (main_arg1 : FVec F S256x2000 .f32) (main_arg2 : FVec F S256 .f32) (main_arg3 : FVec F S2000x256 .f32) (main_arg4 : FVec F S2000x768 .f32) : IVec S_ 1 :=
  let main_v0 : FVec F S64x2000 .f32 := Host.absf main_arg0
  let main_cst : FVec F S_ .f32 := constant S_ .f32 0x7F800000#32
  let main_v1 : FVec F S64x2000 .f32 := broadcastInDim S64x2000 ![] bcast_S_S64x2000 main_cst
  let main_v2 : IVec S64x2000 1 := cmpf .olt main_v0 main_v1
  let main_c : IVec S_ 1 := constantI S_ 1 1#1
  let main_v3 : IVec S_ 1 := (fun x v => Host.reduce IntOp.andi x v reducesTo_S64x2000_S_d0_1 h_S_) main_v2 main_c
  let main_v4 : FVec F S256x2000 .f32 := Host.absf main_arg1
  let main_cst_0 : FVec F S_ .f32 := constant S_ .f32 0x7F800000#32
  let main_v5 : FVec F S256x2000 .f32 := broadcastInDim S256x2000 ![] bcast_S_S256x2000 main_cst_0
  let main_v6 : IVec S256x2000 1 := cmpf .olt main_v4 main_v5
  let main_c_1 : IVec S_ 1 := constantI S_ 1 1#1
  let main_v7 : IVec S_ 1 := (fun x v => Host.reduce IntOp.andi x v reducesTo_S256x2000_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_arg4 main_v13 main_v16
-- ==== Kernel.lean ====
abbrev S64x2000 : Shape := ⟨2, ![64, 2000]⟩
abbrev S256x2000 : Shape := ⟨2, ![256, 2000]⟩
abbrev S256 : Shape := ⟨1, ![256]⟩
abbrev S2000x256 : Shape := ⟨2, ![2000, 256]⟩
abbrev S2000x768 : Shape := ⟨2, ![2000, 768]⟩
abbrev S_ : Shape := ⟨0, ![]⟩
abbrev S64x2048 : Shape := ⟨2, ![64, 2048]⟩
abbrev S256x2048 : Shape := ⟨2, ![256, 2048]⟩
abbrev S2048x768 : Shape := ⟨2, ![2048, 768]⟩
abbrev S256x1 : Shape := ⟨2, ![256, 1]⟩
abbrev S64x256x768 : Shape := ⟨3, ![64, 256, 768]⟩
abbrev S64x256 : Shape := ⟨2, ![64, 256]⟩
abbrev S32x256 : Shape := ⟨2, ![32, 256]⟩
abbrev S256x768 : Shape := ⟨2, ![256, 768]⟩
abbrev S32x1 : Shape := ⟨2, ![32, 1]⟩
abbrev S64x32x768 : Shape := ⟨3, ![64, 32, 768]⟩
abbrev S64x1x256 : Shape := ⟨3, ![64, 1, 256]⟩
abbrev S1x32x256 : Shape := ⟨3, ![1, 32, 256]⟩
abbrev S64x32x256 : Shape := ⟨3, ![64, 32, 256]⟩
abbrev S2048x256 : Shape := ⟨2, ![2048, 256]⟩
abbrev S1x32x1 : Shape := ⟨3, ![1, 32, 1]⟩
abbrev S64x196608 : Shape := ⟨2, ![64, 196608]⟩

abbrev nBuf : Space → Nat
  | .hbm => 22
  | .vmem => 11
  | .smem => 0
  | _ => 0

abbrev bufTy : (tb : Table) → Fin (tcTables nBuf tb) → BufTy
  | .hbm, ⟨0, _⟩ => ⟨S64x2000, .f32⟩
  | .hbm, ⟨1, _⟩ => ⟨S256x2000, .f32⟩
  | .hbm, ⟨2, _⟩ => ⟨S256, .f32⟩
  | .hbm, ⟨3, _⟩ => ⟨S2000x256, .f32⟩
  | .hbm, ⟨4, _⟩ => ⟨S2000x768, .f32⟩
  | .hbm, ⟨5, _⟩ => ⟨S256x2000, .f32⟩
  | .hbm, ⟨6, _⟩ => ⟨S256x2000, .f32⟩
  | .hbm, ⟨7, _⟩ => ⟨S_, .i32⟩
  | .hbm, ⟨8, _⟩ => ⟨S_, .f32⟩
  | .hbm, ⟨9, _⟩ => ⟨S64x2048, .f32⟩
  | .hbm, ⟨10, _⟩ => ⟨S64x2048, .bf16⟩
  | .hbm, ⟨11, _⟩ => ⟨S_, .i32⟩
  | .hbm, ⟨12, _⟩ => ⟨S_, .f32⟩
  | .hbm, ⟨13, _⟩ => ⟨S256x2048, .f32⟩
  | .hbm, ⟨14, _⟩ => ⟨S256x2048, .bf16⟩
  | .hbm, ⟨15, _⟩ => ⟨S_, .i32⟩
  | .hbm, ⟨16, _⟩ => ⟨S_, .f32⟩
  | .hbm, ⟨17, _⟩ => ⟨S2048x768, .f32⟩
  | .hbm, ⟨18, _⟩ => ⟨S2048x768, .bf16⟩
  | .hbm, ⟨19, _⟩ => ⟨S256x1, .f32⟩
  | .hbm, ⟨20, _⟩ => ⟨S64x256x768, .f32⟩
  | .hbm, ⟨21, _⟩ => ⟨S64x196608, .f32⟩
  | .local _ .vmem, ⟨0, _⟩ => ⟨S64x256, .bf16⟩
  | .local _ .vmem, ⟨1, _⟩ => ⟨S64x256, .bf16⟩
  | .local _ .vmem, ⟨2, _⟩ => ⟨S32x256, .bf16⟩
  | .local _ .vmem, ⟨3, _⟩ => ⟨S32x256, .bf16⟩
  | .local _ .vmem, ⟨4, _⟩ => ⟨S256x768, .bf16⟩
  | .local _ .vmem, ⟨5, _⟩ => ⟨S256x768, .bf16⟩
  | .local _ .vmem, ⟨6, _⟩ => ⟨S32x1, .f32⟩
  | .local _ .vmem, ⟨7, _⟩ => ⟨S32x1, .f32⟩
  | .local _ .vmem, ⟨8, _⟩ => ⟨S64x32x768, .f32⟩
  | .local _ .vmem, ⟨9, _⟩ => ⟨S64x32x768, .f32⟩
  | .local _ .vmem, ⟨10, _⟩ => ⟨S64x32x768, .f32⟩
  | _, _ => ⟨S64x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S2000x256_S256x2000_1_0 : S2000x256.Transposes [1, 0] S256x2000
  pads_S64x2000_S64x2048_000_0480 : S64x2000.Pads (![0, 0] : Fin 2 → Nat) ![0, 48] ![0, 0] S64x2048
  h_S_ : 0 < S_.numel
  bitsLt_bf16_f32 : FTy.bits .bf16 < FTy.bits .f32
  pads_S256x2000_S256x2048_000_0480 : S256x2000.Pads (![0, 0] : Fin 2 → Nat) ![0, 48] ![0, 0] S256x2048
  pads_S2000x768_S2048x768_0480_000 : S2000x768.Pads (![0, 0] : Fin 2 → Nat) ![48, 0] ![0, 0] S2048x768
  shapeCasts_S256_S256x1 : S256.ShapeCasts S256x1
  inb_S64x32x768_S64x32x768_0_0_0 : ∀ a, (![0, 0, 0] : Fin 3 → Nat) a + S64x32x768.size a ≤ S64x32x768.size a
  h_S64x32x768 : 0 < S64x32x768.numel
  shapeCasts_S64x32x768_S64x32x768 : S64x32x768.ShapeCasts S64x32x768
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S64x256_S64x1x256 : S64x256.ShapeCasts S64x1x256
  shapeCasts_S32x256_S1x32x256 : S32x256.ShapeCasts S1x32x256
  broadcasts_S64x1x256_S64x32x256 : S64x1x256.Broadcasts S64x32x256
  broadcasts_S1x32x256_S64x32x256 : S1x32x256.Broadcasts S64x32x256
  shapeCasts_S64x32x256_S2048x256 : S64x32x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  shapeCasts_S2048x768_S64x32x768 : S2048x768.ShapeCasts S64x32x768
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x1_S1x32x1 : S32x1.ShapeCasts S1x32x1
  broadcasts_S1x32x1_S64x32x768 : S1x32x1.Broadcasts S64x32x768
  shapeCasts_S64x256x768_S64x196608 : S64x256x768.ShapeCasts S64x196608
  dot_S2048x256_S256x768_S2048x768_1_0_0_1_n_n_wf : DotDims.WF S2048x256 S256x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x2048.size a
  hwx0_0 : ∀ i : grid0.Coords, EltTy.bits .bf16 = 32 ∨ (Rect.block (s := S64x2048) S64x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S256x2048.size a
  hwx0_1 : ∀ i : grid0.Coords, EltTy.bits .bf16 = 32 ∨ (Rect.block (s := S256x2048) S32x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S2048x768.size a
  hwx0_2 : ∀ i : grid0.Coords, EltTy.bits .bf16 = 32 ∨ (Rect.block (s := S2048x768) S256x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S256x1.size a
  hwx0_3 : ∀ i : grid0.Coords, EltTy.bits .f32 = 32 ∨ (Rect.block (s := S256x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x32x768.size a ≤ S64x256x768.size a
  hwx0_4 : ∀ i : grid0.Coords, EltTy.bits .f32 = 32 ∨ (Rect.block (s := S64x256x768) S64x32x768.size (cc0_transform_4 i) (hinb0_4 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf

abbrev win0_0 : Pipeline.Window sig grid0 :=
  Pipeline.Window.ofSpec (Memref.whole main_v3) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x32x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x2000 : Shape := ⟨2, ![64, 2000]⟩
abbrev S256x2000 : Shape := ⟨2, ![256, 2000]⟩
abbrev S256 : Shape := ⟨1, ![256]⟩
abbrev S2000x256 : Shape := ⟨2, ![2000, 256]⟩
abbrev S2000x768 : Shape := ⟨2, ![2000, 768]⟩
abbrev S64x1x2000 : Shape := ⟨3, ![64, 1, 2000]⟩
abbrev S1x256x2000 : Shape := ⟨3, ![1, 256, 2000]⟩
abbrev S64x256x2000 : Shape := ⟨3, ![64, 256, 2000]⟩
abbrev S64x256x768 : Shape := ⟨3, ![64, 256, 768]⟩
abbrev S1x256x1 : Shape := ⟨3, ![1, 256, 1]⟩
abbrev S64x196608 : Shape := ⟨2, ![64, 196608]⟩

abbrev nBuf : Space → Nat
  | .hbm => 17
  | .vmem => 0
  | .smem => 0
  | _ => 0

abbrev bufTy : (tb : Table) → Fin (tcTables nBuf tb) → BufTy
  | .hbm, ⟨0, _⟩ => ⟨S64x2000, .f32⟩
  | .hbm, ⟨1, _⟩ => ⟨S256x2000, .f32⟩
  | .hbm, ⟨2, _⟩ => ⟨S256, .f32⟩
  | .hbm, ⟨3, _⟩ => ⟨S2000x256, .f32⟩
  | .hbm, ⟨4, _⟩ => ⟨S2000x768, .f32⟩
  | .hbm, ⟨5, _⟩ => ⟨S256x2000, .f32⟩
  | .hbm, ⟨6, _⟩ => ⟨S256x2000, .f32⟩
  | .hbm, ⟨7, _⟩ => ⟨S64x1x2000, .f32⟩
  | .hbm, ⟨8, _⟩ => ⟨S1x256x2000, .f32⟩
  | .hbm, ⟨9, _⟩ => ⟨S64x256x2000, .f32⟩
  | .hbm, ⟨10, _⟩ => ⟨S64x256x2000, .f32⟩
  | .hbm, ⟨11, _⟩ => ⟨S64x256x2000, .f32⟩
  | .hbm, ⟨12, _⟩ => ⟨S64x256x768, .f32⟩
  | .hbm, ⟨13, _⟩ => ⟨S1x256x1, .f32⟩
  | .hbm, ⟨14, _⟩ => ⟨S64x256x768, .f32⟩
  | .hbm, ⟨15, _⟩ => ⟨S64x256x768, .f32⟩
  | .hbm, ⟨16, _⟩ => ⟨S64x196608, .f32⟩
  | _, _ => ⟨S64x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  transposes_S2000x256_S256x2000_1_0 : S2000x256.Transposes [1, 0] S256x2000
  bcast_S64x2000_S64x1x2000_0_2 : S64x2000.BroadcastsInDim S64x1x2000 (![0, 2] : Fin 2 → Fin S64x1x2000.rank)
  bcast_S256x2000_S1x256x2000_1_2 : S256x2000.BroadcastsInDim S1x256x2000 (![1, 2] : Fin 2 → Fin S1x256x2000.rank)
  bcast_S64x1x2000_S64x256x2000_0_1_2 : S64x1x2000.BroadcastsInDim S64x256x2000 (![0, 1, 2] : Fin 3 → Fin S64x256x2000.rank)
  bcast_S1x256x2000_S64x256x2000_0_1_2 : S1x256x2000.BroadcastsInDim S64x256x2000 (![0, 1, 2] : Fin 3 → Fin S64x256x2000.rank)
  bcast_S256_S1x256x1_1 : S256.BroadcastsInDim S1x256x1 (![1] : Fin 1 → Fin S1x256x1.rank)
  bcast_S1x256x1_S64x256x768_0_1_2 : S1x256x1.BroadcastsInDim S64x256x768 (![0, 1, 2] : Fin 3 → Fin S64x256x768.rank)
  shapeCasts_S64x256x768_S64x196608 : S64x256x768.ShapeCasts S64x196608
  dot_S64x256x2000_S2000x768_S64x256x768_2_0_01_1_n_n_wf : DotDims.WF S64x256x2000 S2000x768 S64x256x768 [2] [0] [0, 1] [1] [] []

variable [Facts₀]

def dot_S64x256x2000_S2000x768_S64x256x768_2_0_01_1_n_n : DotDims S64x256x2000 S2000x768 S64x256x768 where
  lhsContracting := [2]
  rhsContracting := [0]
  lhsNonContracting := [0, 1]
  rhsNonContracting := [1]
  lhsBatch := []
  rhsBatch := []
  wf := dot_S64x256x2000_S2000x768_S64x256x768_2_0_01_1_n_n_wf

class Facts : Prop extends Facts₀ where

variable [Facts]
-- ==== Proof.Spec.lean ====
/-
  The function both programs compute.

  For x [64, 2000], weight [256, 2000], bias [256], mask [2000, 256], emb [2000, 768]:

      out (b, p, q)  =  Σ_{d<2000} (x (b, d) · (weight (p, d) · mask (d, p))) · emb (d, q)  +  bias (p)

  over the extended reals; the result array is out re-laid from [64, 256, 768] to [64, 256·768].
-/
import Idealize.ShloMosaic.Lib.ValueIdx
import Idealize.ShloMosaic.PureOps.Ideal

noncomputable section

open scoped BigOperators
open Idealize.ShloMosaic Idealize.ShloMosaic.ValueIdx

namespace Cert.Spec

/-- The masked, embedded projection with its bias, element by element. -/
def out (x : (⟨2, ![64, 2000]⟩ : Shape).Idx → EReal) (weight : (⟨2, ![256, 2000]⟩ : Shape).Idx → EReal)
    (bias : (⟨1, ![256]⟩ : Shape).Idx → EReal) (mask : (⟨2, ![2000, 256]⟩ : Shape).Idx → EReal)
    (emb : (⟨2, ![2000, 768]⟩ : Shape).Idx → EReal) : (⟨3, ![64, 256, 768]⟩ : Shape).Idx → EReal :=
  fun i => (∑ d : Fin 2000, (x (ix2 (i 0) d) * (weight (ix2 (i 1) d) * mask (ix2 d (i 1)))) * emb (ix2 d (i 2)))
    + bias (ix1 (i 1))

end Cert.Spec
end
-- ==== Proof.RefSide.lean ====
/-
  The reference computes `Spec.out`.

  Its host program broadcasts x along a new middle axis and the masked weight along a new leading axis, multiplies
  them element by element, contracts the last axis against emb, adds the broadcast bias, and re-lays the result.
  Read at (b, p, q), the contraction is the sum over d < 2000 of (x (b, d) · (weight (p, d) · mask (d, p))) · emb (d, q).
-/
import proofs.«135823_j30193620091140_2_alg».proof.Defs
import proofs.«135823_j30193620091140_2_alg».proof.Proof.Gen.ReferenceIdeal.Read
import proofs.«135823_j30193620091140_2_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- Before the final re-laying the reference holds `Spec.out` of its arguments. -/
theorem before_relay (x0 : S64x2000.Idx → EReal) (x1 : S256x2000.Idx → EReal) (x2 : S256.Idx → EReal)
    (x3 : S2000x256.Idx → EReal) (x4 : S2000x768.Idx → EReal) :
    val_main_v10 (F := Ideal) x0 x1 x2 x3 x4 = Cert.Spec.out x0 x1 x2 x3 x4 := by
  funext i
  rw [val_main_v10_apply, val_main_v7_apply, val_main_v9_apply, val_main_v8_apply]
  unfold Cert.Spec.out
  show (∑ k : Fin 2000, _) + _ = (∑ d : Fin 2000, _) + _
  congr 1
  · refine Finset.sum_congr rfl fun d _ => ?_
    rw [val_main_v6_apply, val_main_v4_apply, val_main_v2_apply, val_main_v5_apply, val_main_v3_apply, val_main_v1_apply,
      val_main_v0_apply]
    have e0 : idx_main_v2 (idx_main_v4 (lidx_main_v7 i d)) = ix2 (i 0) d :=
      funext fun a => Fin.ext (by match a with | ⟨0, _⟩ => rfl | ⟨1, _⟩ => rfl)
    have e1 : idx_main_v3 (idx_main_v5 (lidx_main_v7 i d)) = ix2 (i 1) d :=
      funext fun a => Fin.ext (by match a with | ⟨0, _⟩ => rfl | ⟨1, _⟩ => rfl)
    have e3 : idx_main_v0 (ix2 (i 1) d : S256x2000.Idx) = ix2 d (i 1) :=
      funext fun a => Fin.ext (by match a with | ⟨0, _⟩ => rfl | ⟨1, _⟩ => rfl)
    have e4 : ridx_main_v7 i d = ix2 d (i 2) :=
      funext fun a => Fin.ext (by match a with | ⟨0, _⟩ => rfl | ⟨1, _⟩ => rfl)
    rw [e0, e1, e3, e4]
    rfl
  · have e8 : idx_main_v8 (idx_main_v9 i) = ix1 (i 1) :=
      funext fun a => Fin.ext (by match a with | ⟨0, _⟩ => rfl)
    exact congrArg x2 e8

end Cert.ReferenceIdeal.RefValue
end
-- ==== Proof.Pieces.lean ====
/-
  What one grid step leaves behind, as values.

  The kernel walks a grid of 8 x 8 steps: the outer coordinate picks a block of 32 of the 256 output rows p, the inner
  one a tile of 256 of the 2048 (padded) contraction positions.  It carries an accumulator of shape [64, 32, 768]
  from step to step.  Each step replaces the accumulator by

      update x w e acc  =  acc + (x ⊗ w) · e

  (the step's blocks x [64,256], w [32,256], e [256,768]); at the first tile of a row block the accumulator is first
  reset to zero, and at the last tile the output block is set to  accumulator + bias column.  This module reads those
  three facts off the stores the symbolic run of the body found, for any float instance: after the run each buffer
  holds exactly the value of its last covering store, whose operands are the whole input blocks.
-/
import proofs.«135823_j30193620091140_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A middle tile (neither first nor last of its row block): the accumulator found at `xs0` is left at its update. -/
theorem sout_B (c : Dev nD) (i : grid0.Coords) (arg2 : Memref sig .tc .vmem S64x256 .bf16) (harg2 : arg2.IsWhole) (arg3 : Memref sig .tc .vmem S32x256 .bf16) (harg3 : arg3.IsWhole) (arg4 : Memref sig .tc .vmem S256x768 .bf16) (harg4 : arg4.IsWhole) (arg5 : Memref sig .tc .vmem S32x1 .f32) (harg5 : arg5.IsWhole) (arg6 : Memref sig .tc .vmem S64x32x768 .f32) (harg6 : arg6.IsWhole) (arg7 : Memref sig .tc .vmem S64x32x768 .f32) (harg7 : arg7.IsWhole) (hc0 : ¬cond0_0 i) (hc1 : ¬cond0_1 i)
    (x0 : Vec F S64x256 .bf16) (x1 : Vec F S32x256 .bf16) (x2 : Vec F S256x768 .bf16) (x3 : Vec F S32x1 .f32) (xs0 : Vec F S64x32x768 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz3]
  simp only [View.readAt_eq_ld, harg2.read_unread, harg3.read_unread, harg4.read_unread, harg5.read_unread, harg7.read_unread,
    View.ld_unit_zero (S := S64x256) hz2, View.ld_unit_zero (S := S32x256) hz2, View.ld_unit_zero (S := S256x768) hz2,
    View.ld_unit_zero (S := S32x1) hz2, View.ld_unit_zero (S := S64x32x768) hz3]

/-- The last tile of a row block: the accumulator is updated the same way, -/
theorem sout_C (c : Dev nD) (i : grid0.Coords) (arg2 : Memref sig .tc .vmem S64x256 .bf16) (harg2 : arg2.IsWhole) (arg3 : Memref sig .tc .vmem S32x256 .bf16) (harg3 : arg3.IsWhole) (arg4 : Memref sig .tc .vmem S256x768 .bf16) (harg4 : arg4.IsWhole) (arg5 : Memref sig .tc .vmem S32x1 .f32) (harg5 : arg5.IsWhole) (arg6 : Memref sig .tc .vmem S64x32x768 .f32) (harg6 : arg6.IsWhole) (arg7 : Memref sig .tc .vmem S64x32x768 .f32) (harg7 : arg7.IsWhole) (hc0 : ¬cond0_0 i) (hc1 : cond0_1 i)
    (x0 : Vec F S64x256 .bf16) (x1 : Vec F S32x256 .bf16) (x2 : Vec F S256x768 .bf16) (x3 : Vec F S32x1 .f32) (xs0 : Vec F S64x32x768 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread,
    View.ld_unit_zero (S := S64x256) hz2, View.ld_unit_zero (S := S32x256) hz2, View.ld_unit_zero (S := S256x768) hz2,
    View.ld_unit_zero (S := S32x1) hz2, View.ld_unit_zero (S := S64x32x768) hz3]

/-- and the output block is the updated accumulator plus the bias column. -/
theorem out_C (c : Dev nD) (i : grid0.Coords) (arg2 : Memref sig .tc .vmem S64x256 .bf16) (harg2 : arg2.IsWhole) (arg3 : Memref sig .tc .vmem S32x256 .bf16) (harg3 : arg3.IsWhole) (arg4 : Memref sig .tc .vmem S256x768 .bf16) (harg4 : arg4.IsWhole) (arg5 : Memref sig .tc .vmem S32x1 .f32) (harg5 : arg5.IsWhole) (arg6 : Memref sig .tc .vmem S64x32x768 .f32) (harg6 : arg6.IsWhole) (arg7 : Memref sig .tc .vmem S64x32x768 .f32) (harg7 : arg7.IsWhole) (hc0 : ¬cond0_0 i) (hc1 : cond0_1 i)
    (x0 : Vec F S64x256 .bf16) (x1 : Vec F S32x256 .bf16) (x2 : Vec F S256x768 .bf16) (x3 : Vec F S32x1 .f32) (xs0 : Vec F S64x32x768 .f32) :
    out0_C_4 c i arg2 harg2 arg3 harg3 arg4 harg4 arg5 harg5 arg6 harg6 arg7 harg7 hc0 hc1 x0 x1 x2 x3 xs0 = k0_pay3 x3 (k0_pay2 x0 x1 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S64x32x768) _ hz3]
  simp only [View.readAt_eq_ld, harg2.read_unread, harg3.read_unread, harg4.read_unread, harg5.read_unread, harg7.read_unread,
    View.ld_unit_zero (S := S64x256) hz2, View.ld_unit_zero (S := S32x256) hz2, View.ld_unit_zero (S := S256x768) hz2,
    View.ld_unit_zero (S := S32x1) hz2, View.ld_unit_zero (S := S64x32x768) hz3]

/-- The first tile of a row block: the accumulator is reset to the zero block and then updated. -/
theorem sout_A (c : Dev nD) (i : grid0.Coords) (arg2 : Memref sig .tc .vmem S64x256 .bf16) (harg2 : arg2.IsWhole) (arg3 : Memref sig .tc .vmem S32x256 .bf16) (harg3 : arg3.IsWhole) (arg4 : Memref sig .tc .vmem S256x768 .bf16) (harg4 : arg4.IsWhole) (arg5 : Memref sig .tc .vmem S32x1 .f32) (harg5 : arg5.IsWhole) (arg6 : Memref sig .tc .vmem S64x32x768 .f32) (harg6 : arg6.IsWhole) (arg7 : Memref sig .tc .vmem S64x32x768 .f32) (harg7 : arg7.IsWhole) (hc0 : cond0_0 i) (hc1 : ¬cond0_1 i)
    (x0 : Vec F S64x256 .bf16) (x1 : Vec F S32x256 .bf16) (x2 : Vec F S256x768 .bf16) (x3 : Vec F S32x1 .f32) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x32x768) hz3, View.readCov_unit_zero (S := S64x32x768) _ hz3]
  simp only [View.readAt_eq_ld, harg2.read_unread, harg3.read_unread, harg4.read_unread, harg5.read_unread, harg7.read_unread,
    View.ld_unit_zero (S := S64x256) hz2, View.ld_unit_zero (S := S32x256) hz2, View.ld_unit_zero (S := S256x768) hz2,
    View.ld_unit_zero (S := S32x1) hz2, View.ld_unit_zero (S := S64x32x768) hz3]

end Cert.KernelIdeal.Pieces
end
-- ==== Proof.Steps.lean ====
/-
  The accumulator from one grid step to the next, and the blocks a step reads.

  Step t = 8·P + k works on row block P (output rows 32·P … 32·P + 31) and contraction tile k (positions
  256·k … 256·k + 255).  Its blocks are cut from the launch arrays X, W, E, B at those offsets.  The accumulator after
  step t is the update of: the zero block when k = 0, the accumulator after step t − 1 otherwise; and when k = 7 the
  step's output block is that accumulator plus the bias block.
-/
import proofs.«135823_j30193620091140_2_alg».proof.Proof.Pieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Steps

open Cert.KernelIdeal Cert.KernelIdeal.Gen

variable {F : FTy → Type} [FloatOps F]
variable (m : (ℓ : Loc nD τ sig) → Buf (Elt F) ℓ)

/-- The accumulator after step `n`. -/
abbrev accAfter (c : Dev nD) (n : ℕ) (h : n < cfg0.N) : Vec F S64x32x768 .f32 := (outsAt0 m c n h).2

/-- First tile of a row block: reset, then update. -/
theorem acc_first (c : Dev nD) (t : Fin cfg0.N) (h0 : t.val % 8 = 0) :
    accAfter m c t.val t.isLt = k0_pay2 (iblk m c 0 t) (iblk m c 1 t) (iblk m c 2 t) (k0_pay1 (F := F)) := by
  have h1 : ¬t.val % 8 = 7 := by omega
  show (outsAt0 m c t.val t.isLt).2 = _
  rw [outsAt0_A m c t h0 h1]
  dsimp only
  exact Pieces.sout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- Any later tile: update of what the step before left. -/
theorem acc_next (c : Dev nD) (t : Fin cfg0.N) (h0 : ¬t.val % 8 = 0) :
    accAfter m c t.val t.isLt
      = k0_pay2 (iblk m c 0 t) (iblk m c 1 t) (iblk m c 2 t)
          (accAfter m c (t.val - 1) (Nat.lt_of_le_of_lt (Nat.sub_le _ _) t.isLt)) := by
  show (outsAt0 m c t.val t.isLt).2 = k0_pay2 (iblk m c 0 t) (iblk m c 1 t) (iblk m c 2 t) (outsAt0 m c (t.val - 1) (Nat.lt_of_le_of_lt (Nat.sub_le _ _) t.isLt)).2
  by_cases h1 : t.val % 8 = 7
  · rw [outsAt0_C m c t h0 h1]
    dsimp only
    exact Pieces.sout_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact Pieces.sout_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- Last tile of a row block: the output block is the accumulator just formed plus the bias block. -/
theorem out_last (c : Dev nD) (t : Fin cfg0.N) (h1 : t.val % 8 = 7) :
    (outsAt0 m c t.val t.isLt).1 = k0_pay3 (iblk m c 3 t) (accAfter m c t.val t.isLt) := by
  have h0 : ¬t.val % 8 = 0 := by omega
  rw [acc_next m c t h0]
  show (outsAt0 m c t.val t.isLt).1 = k0_pay3 (iblk m c 3 t) (k0_pay2 (iblk m c 0 t) (iblk m c 1 t) (iblk m c 2 t) (outsAt0 m c (t.val - 1) (Nat.lt_of_le_of_lt (Nat.sub_le _ _) t.isLt)).2)
  rw [outsAt0_C m c t h0 h1]
  dsimp only
  exact Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-! ## The blocks a step reads -/

/-- Where each window's block sits at step t, decided once over the 64 steps. -/
theorem where_x : ∀ t : Fin cfg0.N, win0_0.index t (0 : Fin 2) = 0 ∧ win0_0.index t (1 : Fin 2) = t.val % 8 :=
  (by decide +kernel : ∀ t : Fin grid0.N, win0_0.index t (0 : Fin 2) = 0 ∧ win0_0.index t (1 : Fin 2) = t.val % 8)
theorem where_w : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)
theorem where_e : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem where_b : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem where_o : ∀ t : Fin cfg0.N, win0_4.index t (0 : Fin 3) = 0 ∧ win0_4.index t (1 : Fin 3) = t.val / 8 ∧ win0_4.index t (2 : Fin 3) = 0 :=
  (by decide +kernel : ∀ t : Fin grid0.N, win0_4.index t (0 : Fin 3) = 0 ∧ win0_4.index t (1 : Fin 3) = t.val / 8 ∧ win0_4.index t (2 : Fin 3) = 0)

/-- Contraction position 256·(n mod 8) + j: position j of the tile of step n. -/
abbrev tilePos (n : ℕ) (j : Fin 256) : Fin 2048 := ⟨256 * (n % 8) + j.val, by have := j.isLt; omega⟩
/-- Output row 32·(n / 8 mod 8) + r: row r of the row block of step n. -/
abbrev blockRow (n : ℕ) (r : Fin 32) : Fin 256 := ⟨32 * (n / 8 % 8) + r.val, by have := r.isLt; omega⟩

theorem lt64 (t : Fin cfg0.N) : t.val < 64 := lt_of_lt_of_eq t.isLt (show cfg0.N = 64 from N_0)

theorem xblk_at (c : Dev nD) (t : Fin cfg0.N) (b : Fin 64) (j : Fin 256) :
    (iblk m c 0 t : Vec F S64x256 .bf16) (ix2 b j) = V m c main_v3 (ix2 b (tilePos t.val j)) := by
  unfold iblk
  rw [View.read_apply]
  show V m c main_v3 _ = V m c main_v3 _
  congr 1
  funext a
  apply Fin.ext
  match a with
  | ⟨0, _⟩ => show win0_0.index t 0 * 64 + 1 * b.val = b.val; rw [(where_x t).1]; omega
  | ⟨1, _⟩ => show win0_0.index t 1 * 256 + 1 * j.val = 256 * (t.val % 8) + j.val; rw [(where_x t).2]; omega

theorem wblk_at (c : Dev nD) (t : Fin cfg0.N) (r : Fin 32) (j : Fin 256) :
    (iblk m c 1 t : Vec F S32x256 .bf16) (ix2 r j) = V m c main_v5 (ix2 (blockRow t.val r) (tilePos t.val j)) := by
  have := lt64 t
  unfold iblk
  rw [View.read_apply]
  show V m c main_v5 _ = V m c main_v5 _
  congr 1
  funext a
  apply Fin.ext
  match a with
  | ⟨0, _⟩ => show win0_1.index t 0 * 32 + 1 * r.val = 32 * (t.val / 8 % 8) + r.val; rw [(where_w t).1]; omega
  | ⟨1, _⟩ => show win0_1.index t 1 * 256 + 1 * j.val = 256 * (t.val % 8) + j.val; rw [(where_w t).2]; omega

theorem eblk_at (c : Dev nD) (t : Fin cfg0.N) (j : Fin 256) (q : Fin 768) :
    (iblk m c 2 t : Vec F S256x768 .bf16) (ix2 j q) = V m c main_v7 (ix2 (tilePos t.val j) q) := by
  unfold iblk
  rw [View.read_apply]
  show V m c main_v7 _ = V m c main_v7 _
  congr 1
  funext a
  apply Fin.ext
  match a with
  | ⟨0, _⟩ => show win0_2.index t 0 * 256 + 1 * j.val = 256 * (t.val % 8) + j.val; rw [(where_e t).1]; omega
  | ⟨1, _⟩ => show win0_2.index t 1 * 768 + 1 * q.val = q.val; rw [(where_e t).2]; omega

theorem bblk_at (c : Dev nD) (t : Fin cfg0.N) (r : Fin 32) :
    (iblk m c 3 t : Vec F S32x1 .f32) (ix2 r (0 : Fin 1)) = V m c main_v8 (ix2 (blockRow t.val r) (0 : Fin 1)) := by
  have := lt64 t
  unfold iblk
  rw [View.read_apply]
  show V m c main_v8 _ = V m c main_v8 _
  congr 1
  funext a
  apply Fin.ext
  match a with
  | ⟨0, _⟩ => show win0_3.index t 0 * 32 + 1 * r.val = 32 * (t.val / 8 % 8) + r.val; rw [(where_b t).1]; omega
  | ⟨1, _⟩ => show win0_3.index t 1 * 1 + 1 * 0 = 0; rw [(where_b t).2]

end Cert.KernelIdeal.Steps
end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«135823_j30193620091140_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Payload.lean ====
/-
  The step's arithmetic at one element, over the extended reals.

  With x [64,256], w [32,256], e [256,768] a step's blocks and acc [64,32,768] the accumulator it finds,

      update x w e acc (b, r, q)  =  acc (b, r, q)  +  Σ_{j<256} (x (b, j) · w (r, j)) · e (j, q):

  the outer product x ⊗ w is laid out as a [64·32, 256] matrix whose row 32·b + r is x (b, ·) · w (r, ·), multiplied
  into a zero block by e, and the [64·32, 768] product is read back as [64, 32, 768] at row 32·b + r.  The reset
  block is zero everywhere, and the output block adds bias (r) to the accumulator's (b, r, q).
-/
import proofs.«135823_j30193620091140_2_alg».proof.Proof.Gen.KernelIdeal.Skeleton
import proofs.«135823_j30193620091140_2_alg».proof.Proof.LibRowReads
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- Row 32·b + r of the flattened [64·32, ·] matrices. -/
abbrev flatRow (b : Fin 64) (r : Fin 32) : Fin 2048 := ⟨32 * b.val + r.val, by have := b.isLt; have := r.isLt; omega⟩

section Layout
variable {α : Type}

/-- [64·32, 768] read back as [64, 32, 768]: (b, r, q) is row 32·b + r, column q. -/
theorem unflatten_at (v : (⟨2, ![2048, 768]⟩ : Shape).Idx → α) (h : (⟨2, ![2048, 768]⟩ : Shape).ShapeCasts ⟨3, ![64, 32, 768]⟩)
    (b : Fin 64) (r : Fin 32) (q : Fin 768) :
    shapeCast ⟨3, ![64, 32, 768]⟩ v h (ix3 b r q) = v (ix2 (flatRow b r) q) :=
  shapeCast_apply v h (ix3 b r q) (ix2 (flatRow b r) q) (by
    rw [Shape.rowMajor_val_two, Shape.rowMajor_val_three]
    show (32 * b.val + r.val) * 768 + q.val = (b.val * 32 + r.val) * 768 + q.val
    omega)

/-- [64, 32, 256] flattened to [64·32, 256]: row 32·b + r, column j is (b, r, j). -/
theorem flatten_at (v : (⟨3, ![64, 32, 256]⟩ : Shape).Idx → α) (h : (⟨3, ![64, 32, 256]⟩ : Shape).ShapeCasts ⟨2, ![2048, 256]⟩)
    (b : Fin 64) (r : Fin 32) (j : Fin 256) :
    shapeCast ⟨2, ![2048, 256]⟩ v h (ix2 (flatRow b r) j) = v (ix3 b r j) :=
  shapeCast_apply v h (ix2 (flatRow b r) j) (ix3 b r j) (by
    rw [Shape.rowMajor_val_two, Shape.rowMajor_val_three]
    show (b.val * 32 + r.val) * 256 + j.val = (32 * b.val + r.val) * 256 + j.val
    omega)

/-- x [64,256] given a middle unit axis and repeated along it 32 times: (b, r, j) is x (b, j). -/
theorem spread_x_at (v : (⟨2, ![64, 256]⟩ : Shape).Idx → α) (h1 : (⟨2, ![64, 256]⟩ : Shape).ShapeCasts ⟨3, ![64, 1, 256]⟩)
    (h2 : (⟨3, ![64, 1, 256]⟩ : Shape).Broadcasts ⟨3, ![64, 32, 256]⟩) (b : Fin 64) (r : Fin 32) (j : Fin 256) :
    broadcastTo ⟨3, ![64, 32, 256]⟩ (shapeCast ⟨3, ![64, 1, 256]⟩ v h1) h2 (ix3 b r j) = v (ix2 b j) := by
  refine (broadcastTo_apply _ h2 (ix3 b r j) (ix3 b (0 : Fin 1) j) (fun a => ?_)).trans ?_
  · match a with
    | ⟨0, _⟩ => show b.val = if (64 : Nat) = 1 then 0 else b.val; rw [if_neg (by decide)]
    | ⟨1, _⟩ => show 0 = if (1 : Nat) = 1 then 0 else r.val; rw [if_pos rfl]
    | ⟨2, _⟩ => show j.val = if (256 : Nat) = 1 then 0 else j.val; rw [if_neg (by decide)]
  · exact shapeCast_apply v h1 (ix3 b (0 : Fin 1) j) (ix2 b j) (by
      rw [Shape.rowMajor_val_two, Shape.rowMajor_val_three]
      show b.val * 256 + j.val = (b.val * 1 + 0) * 256 + j.val
      omega)

/-- w [32,256] given a leading unit axis and repeated along it 64 times: (b, r, j) is w (r, j). -/
theorem spread_w_at (v : (⟨2, ![32, 256]⟩ : Shape).Idx → α) (h1 : (⟨2, ![32, 256]⟩ : Shape).ShapeCasts ⟨3, ![1, 32, 256]⟩)
    (h2 : (⟨3, ![1, 32, 256]⟩ : Shape).Broadcasts ⟨3, ![64, 32, 256]⟩) (b : Fin 64) (r : Fin 32) (j : Fin 256) :
    broadcastTo ⟨3, ![64, 32, 256]⟩ (shapeCast ⟨3, ![1, 32, 256]⟩ v h1) h2 (ix3 b r j) = v (ix2 r j) := by
  refine (broadcastTo_apply _ h2 (ix3 b r j) (ix3 (0 : Fin 1) r j) (fun a => ?_)).trans ?_
  · match a with
    | ⟨0, _⟩ => show 0 = if (1 : Nat) = 1 then 0 else b.val; rw [if_pos rfl]
    | ⟨1, _⟩ => show r.val = if (32 : Nat) = 1 then 0 else r.val; rw [if_neg (by decide)]
    | ⟨2, _⟩ => show j.val = if (256 : Nat) = 1 then 0 else j.val; rw [if_neg (by decide)]
  · exact shapeCast_apply v h1 (ix3 (0 : Fin 1) r j) (ix2 r j) (by
      rw [Shape.rowMajor_val_two, Shape.rowMajor_val_three]
      show r.val * 256 + j.val = (0 * 32 + r.val) * 256 + j.val
      omega)

/-- The bias column [32,1] as [1,32,1], repeated over [64,32,768]: (b, r, q) is bias (r, 0). -/
theorem spread_bias_at (v : (⟨2, ![32, 1]⟩ : Shape).Idx → α) (h1 : (⟨2, ![32, 1]⟩ : Shape).ShapeCasts ⟨3, ![1, 32, 1]⟩)
    (h2 : (⟨3, ![1, 32, 1]⟩ : Shape).Broadcasts ⟨3, ![64, 32, 768]⟩) (b : Fin 64) (r : Fin 32) (q : Fin 768) :
    broadcastTo ⟨3, ![64, 32, 768]⟩ (shapeCast ⟨3, ![1, 32, 1]⟩ v h1) h2 (ix3 b r q) = v (ix2 r (0 : Fin 1)) := by
  refine (broadcastTo_apply _ h2 (ix3 b r q) (ix3 (0 : Fin 1) r (0 : Fin 1)) (fun a => ?_)).trans ?_
  · match a with
    | ⟨0, _⟩ => show 0 = if (1 : Nat) = 1 then 0 else b.val; rw [if_pos rfl]
    | ⟨1, _⟩ => show r.val = if (32 : Nat) = 1 then 0 else r.val; rw [if_neg (by decide)]
    | ⟨2, _⟩ => show 0 = if (1 : Nat) = 1 then 0 else q.val; rw [if_pos rfl]
  · exact shapeCast_apply v h1 (ix3 (0 : Fin 1) r (0 : Fin 1)) (ix2 r (0 : Fin 1)) (by
      rw [Shape.rowMajor_val_two, Shape.rowMajor_val_three]
      show r.val * 1 + 0 = (0 * 32 + r.val) * 1 + 0
      omega)

end Layout

/-- The reset block is zero. -/
theorem reset_at (i : S64x32x768.Idx) : k0_pay1 (F := Ideal) i = 0 := by
  unfold k0_pay1
  rw [shapeCast_self]
  exact Ideal.ofBits_zero_f32

/-- The update at (b, r, q). -/
theorem update_at (x : Vec Ideal S64x256 .bf16) (w : Vec Ideal S32x256 .bf16) (e : Vec Ideal S256x768 .bf16)
    (acc : Vec Ideal S64x32x768 .f32) (b : Fin 64) (r : Fin 32) (q : Fin 768) :
    k0_pay2 (F := Ideal) x w e acc (ix3 b r q)
      = acc (ix3 b r q) + ∑ j : Fin 256, (x (ix2 b j) * w (ix2 r j)) * e (ix2 j q) := by
  unfold k0_pay2
  simp only [shapeCast_self]
  rw [addf_apply]
  congr 1
  refine (unflatten_at _ _ b r q).trans ?_
  refine (Cert.Lib.matmul_zero_at dot_S2048x256_S256x768_S2048x768_1_0_0_1_n_n rfl rfl rfl rfl rfl rfl (φ₁ := .bf16) (φ₂ := .bf16) none _ e (flatRow b r) q).trans ?_
  refine Finset.sum_congr rfl fun j _ => ?_
  congr 1
  refine (flatten_at _ _ b r j).trans ?_
  rw [mulf_apply, spread_x_at, spread_w_at]

/-- The output block at (b, r, q). -/
theorem finish_at (bias : Vec Ideal S32x1 .f32) (acc : Vec Ideal S64x32x768 .f32) (b : Fin 64) (r : Fin 32) (q : Fin 768) :
    k0_pay3 (F := Ideal) bias acc (ix3 b r q) = acc (ix3 b r q) + bias (ix2 r (0 : Fin 1)) := by
  unfold k0_pay3
  simp only [shapeCast_self]
  rw [addf_apply, spread_bias_at]

end Cert.KernelIdeal.Payload
end
-- ==== Proof.HostPre.lean ====
/-
  What the kernel is launched on.

  Before the launch the host pads the contraction axis from 2000 to 2048 with zeros (the integer 0 converted to a
  float) and forms the masked weight  wm (p, d) = weight (p, d) · mask (d, p):

      X (b, d)  = x (b, d)     for d < 2000, 0 for 2000 ≤ d < 2048        [64, 2048]
      W (p, d)  = wm (p, d)    for d < 2000, 0 beyond                       [256, 2048]
      E (d, q)  = emb (d, q)   for d < 2000, 0 beyond                       [2048, 768]
      B (p, 0)  = bias (p)                                                   [256, 1]

  (the change of float format after each pad is the identity on the extended reals).
-/
import proofs.«135823_j30193620091140_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.HostPre

open Cert.KernelIdeal Cert.KernelIdeal.Gen

section AnyFloat
variable {F : FTy → Type} [FloatOps F]
variable (m : (ℓ : Loc nD τ sig) → Buf (Elt F) ℓ)

/-- The padding value: the integer 0 converted. -/
abbrev padZero : (S_.Idx → Elt F .f32) := sitofp (F := F) .f32 (constantI S_ 32 0#32)

theorem entry_x (c : Dev nD) : (V m c main_v3 : S64x2048.Idx → Elt F .bf16)
    = truncf .bf16 (pad S64x2048 ![0, 0] ![0, 48] ![0, 0] (m ((c : Thread nD τ).loc main_arg0)) (padZero (F := F))
        pads_S64x2000_S64x2048_000_0480 h_S_) bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem entry_w (c : Dev nD) : (V m c main_v5 : S256x2048.Idx → Elt F .bf16)
    = truncf .bf16 (pad S256x2048 ![0, 0] ![0, 48] ![0, 0]
        (mulf (m ((c : Thread nD τ).loc main_arg1))
          (transpose S256x2000 [1, 0] (m ((c : Thread nD τ).loc main_arg3)) transposes_S2000x256_S256x2000_1_0))
        (padZero (F := F)) pads_S256x2000_S256x2048_000_0480 h_S_) bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem entry_e (c : Dev nD) : (V m c main_v7 : S2048x768.Idx → Elt F .bf16)
    = truncf .bf16 (pad S2048x768 ![0, 0] ![48, 0] ![0, 0] (m ((c : Thread nD τ).loc main_arg4)) (padZero (F := F))
        pads_S2000x768_S2048x768_0480_000 h_S_) bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem entry_b (c : Dev nD) : (V m c main_v8 : S256x1.Idx → Elt F .f32)
    = shapeCast S256x1 (m ((c : Thread nD τ).loc main_arg2)) shapeCasts_S256_S256x1 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

end AnyFloat

/-! ## At an element, over the extended reals -/

variable (m : (ℓ : Loc nD τ sig) → Buf (Elt Ideal) ℓ)

/-- The five arguments as plain arrays of extended reals. -/
abbrev argX (c : Dev nD) : S64x2000.Idx → EReal := m ((c : Thread nD τ).loc main_arg0)
abbrev argW (c : Dev nD) : S256x2000.Idx → EReal := m ((c : Thread nD τ).loc main_arg1)
abbrev argB (c : Dev nD) : S256.Idx → EReal := m ((c : Thread nD τ).loc main_arg2)
abbrev argM (c : Dev nD) : S2000x256.Idx → EReal := m ((c : Thread nD τ).loc main_arg3)
abbrev argE (c : Dev nD) : S2000x768.Idx → EReal := m ((c : Thread nD τ).loc main_arg4)

/-- The four arrays the kernel is launched on. -/
abbrev entX (c : Dev nD) : S64x2048.Idx → EReal := V m c main_v3
abbrev entW (c : Dev nD) : S256x2048.Idx → EReal := V m c main_v5
abbrev entE (c : Dev nD) : S2048x768.Idx → EReal := V m c main_v7
abbrev entB (c : Dev nD) : S256x1.Idx → EReal := V m c main_v8

theorem padZero_eq (i : S_.Idx) : (padZero (F := Ideal) i : EReal) = 0 := by
  show ((((0#32 : BitVec 32).toInt : ℤ) : ℝ) : EReal) = 0
  simp

theorem x_at (c : Dev nD) (b : Fin 64) (d : Fin 2048) :
    entX m c (ix2 b d) = if h : d.val < 2000 then argX m c (ix2 b (⟨d.val, h⟩ : Fin 2000)) else 0 := by
  unfold entX
  rw [entry_x]
  show pad S64x2048 ![0, 0] ![0, 48] ![0, 0] (argX m c) (padZero (F := Ideal)) pads_S64x2000_S64x2048_000_0480 h_S_ (ix2 b d) = _
  by_cases h : d.val < 2000
  · rw [dif_pos h]
    exact pad_apply_of_inside _ _ _ _ _ _ h_S_ (ix2 b d) (ix2 b (⟨d.val, h⟩ : Fin 2000)) (fun a => match a with
      | ⟨0, _⟩ => by show b.val = 0 + b.val * (0 + 1); omega
      | ⟨1, _⟩ => by show d.val = 0 + d.val * (0 + 1); omega)
  · rw [dif_neg h]
    refine (pad_apply_of_not_inside _ _ _ _ _ pads_S64x2000_S64x2048_000_0480 h_S_ (ix2 b d) (1 : Fin 2) ?_).trans (padZero_eq _)
    show ¬(0 ≤ d.val ∧ (d.val - 0) % (0 + 1) = 0 ∧ (d.val - 0) / (0 + 1) < 2000)
    omega

theorem w_at (c : Dev nD) (p : Fin 256) (d : Fin 2048) :
    entW m c (ix2 p d)
      = if h : d.val < 2000 then argW m c (ix2 p (⟨d.val, h⟩ : Fin 2000)) * argM m c (ix2 (⟨d.val, h⟩ : Fin 2000) p) else 0 := by
  unfold entW
  rw [entry_w]
  show pad S256x2048 ![0, 0] ![0, 48] ![0, 0] (mulf (F := Ideal) (φ := .f32) (argW m c) (transpose S256x2000 [1, 0] (argM m c) transposes_S2000x256_S256x2000_1_0))
    (padZero (F := Ideal)) pads_S256x2000_S256x2048_000_0480 h_S_ (ix2 p d) = _
  by_cases h : d.val < 2000
  · rw [dif_pos h]
    refine (pad_apply_of_inside _ _ _ _ _ _ h_S_ (ix2 p d) (ix2 p (⟨d.val, h⟩ : Fin 2000)) (fun a => match a with
      | ⟨0, _⟩ => by show p.val = 0 + p.val * (0 + 1); omega
      | ⟨1, _⟩ => by show d.val = 0 + d.val * (0 + 1); omega)).trans ?_
    rw [mulf_apply, transpose_ix2_apply]
  · rw [dif_neg h]
    refine (pad_apply_of_not_inside _ _ _ _ _ pads_S256x2000_S256x2048_000_0480 h_S_ (ix2 p d) (1 : Fin 2) ?_).trans (padZero_eq _)
    show ¬(0 ≤ d.val ∧ (d.val - 0) % (0 + 1) = 0 ∧ (d.val - 0) / (0 + 1) < 2000)
    omega

theorem e_at (c : Dev nD) (d : Fin 2048) (q : Fin 768) :
    entE m c (ix2 d q) = if h : d.val < 2000 then argE m c (ix2 (⟨d.val, h⟩ : Fin 2000) q) else 0 := by
  unfold entE
  rw [entry_e]
  show pad S2048x768 ![0, 0] ![48, 0] ![0, 0] (argE m c) (padZero (F := Ideal)) pads_S2000x768_S2048x768_0480_000 h_S_ (ix2 d q) = _
  by_cases h : d.val < 2000
  · rw [dif_pos h]
    exact pad_apply_of_inside _ _ _ _ _ _ h_S_ (ix2 d q) (ix2 (⟨d.val, h⟩ : Fin 2000) q) (fun a => match a with
      | ⟨0, _⟩ => by show d.val = 0 + d.val * (0 + 1); omega
      | ⟨1, _⟩ => by show q.val = 0 + q.val * (0 + 1); omega)
  · rw [dif_neg h]
    refine (pad_apply_of_not_inside _ _ _ _ _ pads_S2000x768_S2048x768_0480_000 h_S_ (ix2 d q) (0 : Fin 2) ?_).trans (padZero_eq _)
    show ¬(0 ≤ d.val ∧ (d.val - 0) % (0 + 1) = 0 ∧ (d.val - 0) / (0 + 1) < 2000)
    omega

theorem b_at (c : Dev nD) (p : Fin 256) : entB m c (ix2 p (0 : Fin 1)) = argB m c (ix1 p) := by
  unfold entB
  rw [entry_b]
  exact shapeCast_apply (argB m c) shapeCasts_S256_S256x1 (ix2 p (0 : Fin 1)) (ix1 p) (by
    rw [Shape.rowMajor_val_one, Shape.rowMajor_val_two]
    show p.val = p.val * 1 + 0
    omega)

end Cert.KernelIdeal.HostPre
end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.Accum.lean ====
/-
  The accumulator in closed form, and the sum it ends at.

  Write, for step n (row block P = n / 8, tile k = n mod 8) and an accumulator position (b, r, q),

      tileSum n (b, r, q)  =  Σ_{j<256} (X (b, 256·k + j) · W (32·P + r, 256·k + j)) · E (256·k + j, q).

  By induction on the step, the accumulator after step n holds  Σ_{k' ≤ n mod 8} tileSum (8·P + k')  — the reset at
  k = 0 contributes the zero the sum starts from —, so the block written at k = 7 is the sum of all eight tiles plus
  the bias.  The eight tiles together run over every padded position d < 2048 once; the positions d ≥ 2000 contribute
  0 · 0 · 0 = 0; what is left is  Σ_{d<2000} (x (b, d) · (weight (p, d) · mask (d, p))) · emb (d, q)  with p = 32·P + r.
  Only the grouping of a finite sum changes and zero terms are dropped, which is valid for extended reals as for reals.
-/
import proofs.«135823_j30193620091140_2_alg».proof.Proof.Steps
import proofs.«135823_j30193620091140_2_alg».proof.Proof.Payload
import proofs.«135823_j30193620091140_2_alg».proof.Proof.HostPre
import proofs.«135823_j30193620091140_2_alg».proof.Proof.LibTiles

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Steps Cert.KernelIdeal.HostPre Cert.KernelIdeal.Payload Finset

variable (m : (ℓ : Loc nD τ sig) → Buf (Elt Ideal) ℓ)

/-- One tile's contribution at (b, r, q). -/
def tileSum (c : Dev nD) (n : ℕ) (b : Fin 64) (r : Fin 32) (q : Fin 768) : EReal :=
  ∑ j : Fin 256, (entX m c (ix2 b (tilePos n j)) * entW m c (ix2 (blockRow n r) (tilePos n j))) * entE m c (ix2 (tilePos n j) q)

/-- An update whose blocks are the tile of step n adds that tile's contribution. -/
theorem update_tile (c : Dev nD) (n : ℕ) (x : Vec Ideal S64x256 .bf16) (w : Vec Ideal S32x256 .bf16) (e : Vec Ideal S256x768 .bf16)
    (acc : Vec Ideal S64x32x768 .f32)
    (hx : ∀ (b : Fin 64) (j : Fin 256), x (ix2 b j) = entX m c (ix2 b (tilePos n j)))
    (hw : ∀ (r : Fin 32) (j : Fin 256), w (ix2 r j) = entW m c (ix2 (blockRow n r) (tilePos n j)))
    (he : ∀ (j : Fin 256) (q : Fin 768), e (ix2 j q) = entE m c (ix2 (tilePos n j) q))
    (b : Fin 64) (r : Fin 32) (q : Fin 768) :
    k0_pay2 (F := Ideal) x w e acc (ix3 b r q) = acc (ix3 b r q) + tileSum m c n b r q := by
  rw [update_at]
  unfold tileSum
  congr 1
  refine Finset.sum_congr rfl fun j _ => ?_
  rw [hx, hw, he]

/-- A step adds its tile's contribution to the accumulator it finds. -/
theorem update_step (c : Dev nD) (t : Fin cfg0.N) (acc : Vec Ideal S64x32x768 .f32) (b : Fin 64) (r : Fin 32) (q : Fin 768) :
    k0_pay2 (F := Ideal) (iblk m c 0 t) (iblk m c 1 t) (iblk m c 2 t) acc (ix3 b r q)
      = acc (ix3 b r q) + tileSum m c t.val b r q :=
  update_tile m c t.val (iblk m c 0 t) (iblk m c 1 t) (iblk m c 2 t) acc (xblk_at m c t) (wblk_at m c t) (eblk_at m c t) b r q

/-- The accumulator after step n: the tiles 0 … n mod 8 of its row block, summed. -/
theorem acc_eq (c : Dev nD) : ∀ (n : ℕ) (h : n < cfg0.N) (b : Fin 64) (r : Fin 32) (q : Fin 768),
    accAfter m c n h (ix3 b r q) = ∑ k ∈ range (n % 8 + 1), tileSum m c (8 * (n / 8) + k) b r q := by
  intro n
  induction n with
  | zero =>
    intro h b r q
    rw [acc_first m c ⟨0, h⟩ rfl, update_step m c ⟨0, h⟩, reset_at, zero_add]
    simp
  | succ n ih =>
    intro h b r q
    by_cases h0 : (n + 1) % 8 = 0
    · rw [acc_first m c ⟨n + 1, h⟩ h0, update_step m c ⟨n + 1, h⟩, reset_at, zero_add]
      have e1 : (n + 1) % 8 + 1 = 1 := by omega
      have e2 : 8 * ((n + 1) / 8) + 0 = n + 1 := by omega
      rw [e1, Finset.sum_range_one, e2]
    · rw [acc_next m c ⟨n + 1, h⟩ h0, update_step m c ⟨n + 1, h⟩]
      show accAfter m c n _ (ix3 b r q) + tileSum m c (n + 1) b r q = _
      rw [ih]
      have e1 : (n + 1) % 8 + 1 = (n % 8 + 1) + 1 := by omega
      have e2 : 8 * ((n + 1) / 8) = 8 * (n / 8) := by omega
      have e3 : 8 * (n / 8) + (n % 8 + 1) = n + 1 := by omega
      rw [e1, e2, Finset.sum_range_succ (fun k => tileSum m c (8 * (n / 8) + k) b r q) (n % 8 + 1), e3]

/-- The block written at the last tile of a row block: all eight tiles, plus the bias. -/
theorem out_eq (c : Dev nD) (t : Fin cfg0.N) (h1 : t.val % 8 = 7) (b : Fin 64) (r : Fin 32) (q : Fin 768) :
    (outsAt0 m c t.val t.isLt).1 (ix3 b r q)
      = (∑ k ∈ range 8, tileSum m c (8 * (t.val / 8) + k) b r q) + entB m c (ix2 (blockRow t.val r) (0 : Fin 1)) := by
  rw [out_last m c t h1, finish_at, acc_eq m c t.val t.isLt b r q]
  have e : t.val % 8 + 1 = 8 := by omega
  rw [e]
  exact congrArg _ (bblk_at m c t r)

/-! ## The eight tiles are the whole contraction -/

/-- The reference's contraction at (b, p, q). -/
def rowSum (c : Dev nD) (b : Fin 64) (p : Fin 256) (q : Fin 768) : EReal :=
  ∑ d : Fin 2000, (argX m c (ix2 b d) * (argW m c (ix2 p d) * argM m c (ix2 d p))) * argE m c (ix2 d q)

/-- The padded summand at position d (zero outside the padded axis). -/
def term (c : Dev nD) (b : Fin 64) (p : Fin 256) (q : Fin 768) (d : ℕ) : EReal :=
  if h : d < 2048 then (entX m c (ix2 b (⟨d, h⟩ : Fin 2048)) * entW m c (ix2 p (⟨d, h⟩ : Fin 2048))) * entE m c (ix2 (⟨d, h⟩ : Fin 2048) q) else 0

theorem term_pad (c : Dev nD) (b : Fin 64) (p : Fin 256) (q : Fin 768) (d : ℕ) (hd : 2000 ≤ d) : term m c b p q d = 0 := by
  unfold term
  by_cases h : d < 2048
  · rw [dif_pos h, x_at, w_at, e_at]
    have hn : ¬(⟨d, h⟩ : Fin 2048).val < 2000 := by show ¬d < 2000; omega
    rw [dif_neg hn, dif_neg hn, dif_neg hn]
    simp
  · rw [dif_neg h]

theorem term_in (c : Dev nD) (b : Fin 64) (p : Fin 256) (q : Fin 768) (d : Fin 2000) :
    term m c b p q d.val = (argX m c (ix2 b d) * (argW m c (ix2 p d) * argM m c (ix2 d p))) * argE m c (ix2 d q) := by
  unfold term
  have h : d.val < 2048 := by have := d.isLt; omega
  have hn : (⟨d.val, h⟩ : Fin 2048).val < 2000 := d.isLt
  rw [dif_pos h, x_at, w_at, e_at, dif_pos hn, dif_pos hn, dif_pos hn]

theorem tiles_total (c : Dev nD) (n : ℕ) (hn : n % 8 = 0) (b : Fin 64) (r : Fin 32) (q : Fin 768) :
    ∑ k ∈ range 8, tileSum m c (n + k) b r q = rowSum m c b (blockRow n r) q := by
  have step1 : ∀ k ∈ range 8, tileSum m c (n + k) b r q = ∑ j : Fin 256, term m c b (blockRow n r) q (256 * k + j.val) := by
    intro k hk
    have hk8 : k < 8 := Finset.mem_range.mp hk
    unfold tileSum
    refine Finset.sum_congr rfl fun j _ => ?_
    have hj := j.isLt
    have hlt : 256 * k + j.val < 2048 := by omega
    have eT : tilePos (n + k) j = (⟨256 * k + j.val, hlt⟩ : Fin 2048) := Fin.ext (by show 256 * ((n + k) % 8) + j.val = 256 * k + j.val; omega)
    have eR : blockRow (n + k) r = blockRow n r := Fin.ext (by show 32 * ((n + k) / 8 % 8) + r.val = 32 * (n / 8 % 8) + r.val; omega)
    unfold term
    rw [dif_pos hlt, eT, eR]
  rw [Finset.sum_congr rfl step1, Cert.Tiles.sum_tiles_fin 256 (term m c b (blockRow n r) q) 8]
  rw [show 256 * 8 = 2000 + 48 from rfl, Cert.Tiles.sum_drop_zeros 2000 48 _ (term_pad m c b (blockRow n r) q)]
  rw [← Fin.sum_univ_eq_sum_range (term m c b (blockRow n r) q) 2000]
  unfold rowSum
  exact Finset.sum_congr rfl fun d _ => term_in m c b (blockRow n r) q d

end Cert.KernelIdeal.Accum
end
-- ==== Proof.Final.lean ====
/-
  From blocks to the result array, and the run.

  The output [64, 256, 768] is written once per row block P, at the last tile, as the block of rows 32·P … 32·P + 31;
  the eight blocks tile the array.  By the closed form of the accumulator each written block is the corresponding block
  of `Spec.out` of the arguments, so after the launch the array holds `Spec.out`; the host then re-lays it as
  [64, 256·768], which is the program's result.
-/
import proofs.«135823_j30193620091140_2_alg».proof.Proof.Accum
import proofs.«135823_j30193620091140_2_alg».proof.Proof.Spec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Steps Cert.KernelIdeal.HostPre Cert.KernelIdeal.Accum

variable (m : (ℓ : Loc nD τ sig) → Buf (Elt Ideal) ℓ) (ρ : Dev nD → PrngReg)

/-- What the launch leaves in its output array: `Spec.out` of the five arguments. -/
abbrev regionOut (c : Dev nD) : Buf (Elt Ideal) ((c : Thread nD τ).loc main_v9) :=
  Cert.Spec.out (argX m c) (argW m c) (argB m c) (argM m c) (argE m c)

theorem regionOut_at (c : Dev nD) (b : Fin 64) (p : Fin 256) (q : Fin 768) :
    regionOut m c (ix3 b p q) = rowSum m c b p q + argB m c (ix1 p) := rfl

/-- The block written back at the last tile of row block P is rows 32·P … of `regionOut`. -/
theorem flushed_eq (c : Dev nD) (t : Fin cfg0.N) (hf : (cfg0.win 4).flush t = true) :
    (dats m 0 c).flushed 4 t = ((cfg0.win 4).blk t).view.read (Elt Ideal) (regionOut m c) := by
  have h7 : t.val % 8 = 7 := (flush0_4 t).mp hf
  have hlt := lt64 t
  show (cfg0.win 4).cut (grid0.coords t) ((dats m 0 c).after 4 t) = _
  rw [after0_4]
  funext y
  obtain ⟨b, r, q, rfl⟩ : ∃ (b : Fin 64) (r : Fin 32) (q : Fin 768), y = ix3 b r q := ⟨y 0, y 1, y 2, eq_ix3 y⟩
  show (outsAt0 m c t.val t.isLt).1 (ix3 b r q) = regionOut m c (((cfg0.win 4).blk t).view.emb (ix3 b r q))
  have hi : ((cfg0.win 4).blk t).view.emb (ix3 b r q) = ix3 b (blockRow t.val r) q := by
    funext a
    apply Fin.ext
    match a with
    | ⟨0, _⟩ => show win0_4.index t 0 * 64 + 1 * b.val = b.val; rw [(where_o t).1]; omega
    | ⟨1, _⟩ => show win0_4.index t 1 * 32 + 1 * r.val = 32 * (t.val / 8 % 8) + r.val; rw [(where_o t).2.1]; omega
    | ⟨2, _⟩ => show win0_4.index t 2 * 768 + 1 * q.val = q.val; rw [(where_o t).2.2]; omega
  rw [hi, out_eq m c t h7 b r q, regionOut_at, b_at]
  congr 1
  have e : 8 * (t.val / 8) % 8 = 0 := by omega
  rw [tiles_total m c (8 * (t.val / 8)) e b r q]
  congr 1
  exact Fin.ext (by show 32 * (8 * (t.val / 8) / 8 % 8) + r.val = 32 * (t.val / 8 % 8) + r.val; omega)

/-- An index is in step t's output block iff each coordinate is in the block's range. -/
theorem mem_blk (t : Fin cfg0.N) (i : S64x256x768.Idx) :
    i ∈ ((cfg0.win 4).blk t).view.set ↔ ∀ a : Fin 3, win0_4.index t a * S64x32x768.size a ≤ (i a).val
      ∧ (i a).val < win0_4.index t a * S64x32x768.size a + S64x32x768.size a := by
  show i ∈ ((View.whole main_v9).slice (win0_4.rect t)).set ↔ _
  rw [View.set_slice_whole, Rect.mem_set_unit]
  exact Iff.rfl

/-- Row p lies in the block written at the last tile of row block p / 32. -/
theorem cover (i : S64x256x768.Idx) :
    ∃ t : Fin cfg0.N, (cfg0.win 4).flush t = true ∧ i ∈ ((cfg0.win 4).blk t).view.set := by
  have h0 : (i 0).val < 64 := (i 0).isLt
  have h1 : (i 1).val < 256 := (i 1).isLt
  have h2 : (i 2).val < 768 := (i 2).isLt
  have hN : cfg0.N = 64 := N_0
  have hT : 8 * ((i 1).val / 32) + 7 < cfg0.N := by rw [hN]; omega
  refine ⟨⟨8 * ((i 1).val / 32) + 7, hT⟩, (flush0_4 _).mpr (by show (8 * ((i 1).val / 32) + 7) % 8 = 7; omega), ?_⟩
  rw [mem_blk]
  obtain ⟨w0, w1, w2⟩ := where_o ⟨8 * ((i 1).val / 32) + 7, hT⟩
  have w1' : win0_4.index ⟨8 * ((i 1).val / 32) + 7, hT⟩ (1 : Fin 3) = (8 * ((i 1).val / 32) + 7) / 8 := w1
  intro a
  match a with
  | ⟨0, _⟩ =>
    show win0_4.index ⟨8 * ((i 1).val / 32) + 7, hT⟩ 0 * 64 ≤ (i 0).val ∧ (i 0).val < win0_4.index ⟨8 * ((i 1).val / 32) + 7, hT⟩ 0 * 64 + 64
    rw [w0]; omega
  | ⟨1, _⟩ =>
    show win0_4.index ⟨8 * ((i 1).val / 32) + 7, hT⟩ 1 * 32 ≤ (i 1).val ∧ (i 1).val < win0_4.index ⟨8 * ((i 1).val / 32) + 7, hT⟩ 1 * 32 + 32
    rw [w1']; omega
  | ⟨2, _⟩ =>
    show win0_4.index ⟨8 * ((i 1).val / 32) + 7, hT⟩ 2 * 768 ≤ (i 2).val ∧ (i 2).val < win0_4.index ⟨8 * ((i 1).val / 32) + 7, hT⟩ 2 * 768 + 768
    rw [w2]; omega

/-- After the launch the output array holds `Spec.out` of the arguments. -/
theorem final (c : Dev nD) : (dats m 0 c).arrAt 4 cfg0.N = regionOut m c :=
  (dats m 0 c).arrAt_eq_of_cover 4 (regionOut m c) (flushed_eq m c) cover

/-- The program's result: that array re-laid as [64, 256·768]. -/
theorem tail_eq (c : Dev nD) :
    Pipeline.afterTail₀ cfgs (dats m) 0 (V0 m) [hostOps1] c main_v10
      = shapeCast S64x196608 (regionOut m c) shapeCasts_S64x256x768_S64x196608 := by
  unfold Pipeline.afterTail₀
  show StableHlo.after hostOps1 _ (Proc.devRef .tc main_v10) = _
  after_results
  have hW : Pipeline.withArrays (cfgs 0).spec c (V0 m c) (fun w => (dats m 0 c).arrAt w (cfgs 0).N) (Proc.tc.devRef main_v9)
      = regionOut m c := (Pipeline.withArrays_arr spec0 launch0.win.arr_inj c _ _ 4).trans (final m c)
  rw [hW]
  rfl

/-- The run, read: the result at `Spec.out` of the arguments re-laid, the arguments unchanged. -/
theorem run : θ_run defs (onTc (τ := τ) (main (F := Ideal))) ⟨m, fun _ => 0, ρ⟩ fun r => ∀ c : Dev nD,
      r.2.mem ((c.tc : Thread nD τ).loc main_v10) = shapeCast S64x196608 (regionOut m c) shapeCasts_S64x256x768_S64x196608
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final
end
-- ==== Proof.lean ====
/-
  The kernel and its reference compute one function.

  Both programs take x [64, 2000], weight [256, 2000], bias [256], mask [2000, 256], emb [2000, 768] and return,
  re-laid as [64, 256·768],

      out (b, p, q)  =  Σ_{d<2000} (x (b, d) · (weight (p, d) · mask (d, p))) · emb (d, q)  +  bias (p).

  The reference forms the rank-3 product x (b, d) · wm (p, d) and contracts it against emb in one step.  The kernel
  pads the contraction axis with zeros to 2048 = 8 · 256, and for each block of 32 rows p walks the eight tiles of 256
  positions, accumulating (x ⊗ wm) · emb tile by tile from a zero block and adding the bias after the last tile.  Over the
  extended reals the two agree: a finite sum may be regrouped freely, and the padded positions contribute 0 · 0 · 0 = 0.
  No cancellation or distribution is used, so the finiteness of the inputs is never needed.

  Modules: Spec (the function), RefSide (the reference computes it), Pieces / Steps (what a grid step leaves),
  Payload (a step's arithmetic at an element), HostPre (the padded launch arrays), LibTiles (regrouping sums), Accum (the
  accumulator in closed form), Final (blocks to array, the run).  The kernel leaves its arguments alone and terminates
  by the generated frame; the idealization rewrote nothing.
-/
import proofs.«135823_j30193620091140_2_alg».proof.Defs
import proofs.«135823_j30193620091140_2_alg».proof.Proof.Gen.Kernel
import proofs.«135823_j30193620091140_2_alg».proof.Proof.Gen.Kernel.Frame
import proofs.«135823_j30193620091140_2_alg».proof.Proof.Gen.KernelIdeal
import proofs.«135823_j30193620091140_2_alg».proof.Proof.Gen.KernelIdeal.Frame
import proofs.«135823_j30193620091140_2_alg».proof.Proof.Gen.ReferenceIdeal
import proofs.«135823_j30193620091140_2_alg».proof.Proof.Gen.ReferenceIdeal.Run
import proofs.«135823_j30193620091140_2_alg».proof.Proof.Gen.ReferenceIdeal.Read
import proofs.«135823_j30193620091140_2_alg».proof.Proof.Gen.Pre_finite_inputs
import proofs.«135823_j30193620091140_2_alg».proof.Proof.RefSide
import proofs.«135823_j30193620091140_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `Spec.out` of the (agreeing) arguments, re-laid as [64, 256·768]. -/
theorem algebraic : Cert.algebraic_KernelIdeal_ReferenceIdeal := by
  intro m ρ m' ρ' _ hagree
  refine ⟨fun c => shapeCast Cert.KernelIdeal.S64x196608 (Cert.KernelIdeal.Final.regionOut m c)
    Cert.KernelIdeal.Facts₀.shapeCasts_S64x256x768_S64x196608, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq]
  unfold Cert.ReferenceIdeal.Read.val_main_v11
  rw [Cert.ReferenceIdeal.RefValue.before_relay, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
